-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1 : Shape := ⟨2, ![2048, 1]⟩
abbrev S1 : Shape := ⟨1, ![1]⟩
abbrev S2048x64 : Shape := ⟨2, ![2048, 64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  main_v18

def fn {F : FTy → Type} [FloatOps F] (main_arg0 : FVec F S16384x2048 .f32) (main_arg1 : FVec F S2048x1 .f32) (main_arg2 : FVec F S1 .f32) (main_arg3 : FVec F S2048x64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1 .f32 := Host.absf main_arg1
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_v13 main_v16
-- ==== Kernel.lean ====
abbrev S16384x2048 : Shape := ⟨2, ![16384, 2048]⟩
abbrev S2048x1 : Shape := ⟨2, ![2048, 1]⟩
abbrev S1 : Shape := ⟨1, ![1]⟩
abbrev S2048x64 : Shape := ⟨2, ![2048, 64]⟩
abbrev S2048x65 : Shape := ⟨2, ![2048, 65]⟩
abbrev S16384x1 : Shape := ⟨2, ![16384, 1]⟩
abbrev S1024x2048 : Shape := ⟨2, ![1024, 2048]⟩
abbrev S1024x1 : Shape := ⟨2, ![1024, 1]⟩
abbrev S1024x65 : Shape := ⟨2, ![1024, 65]⟩
abbrev S1024x64 : Shape := ⟨2, ![1024, 64]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S1, .f32⟩
  | .hbm, ⟨3, _⟩ => ⟨S2048x64, .f32⟩
  | .hbm, ⟨4, _⟩ => ⟨S2048x65, .f32⟩
  | .hbm, ⟨5, _⟩ => ⟨S2048x64, .f32⟩
  | .hbm, ⟨6, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x65, .f32⟩
  | .local _ .vmem, ⟨3, _⟩ => ⟨S2048x64, .f32⟩
  | .local _ .vmem, ⟨4, _⟩ => ⟨S1, .f32⟩
  | .local _ .vmem, ⟨5, _⟩ => ⟨S1024x1, .f32⟩
  | .local _ .vmem, ⟨6, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S2048x64_S2048x1_S2048x65_d1 : Shape.Concatenates [S2048x64, S2048x1] S2048x65 1
  inb_S1024x2048_S1024x2048_0_0 : ∀ a, (![0, 0] : Fin 2 → Nat) a + S1024x2048.size a ≤ S1024x2048.size a
  h_S1024x2048 : 0 < S1024x2048.numel
  inb_S2048x65_S2048x65_0_0 : ∀ a, (![0, 0] : Fin 2 → Nat) a + S2048x65.size a ≤ S2048x65.size a
  h_S2048x65 : 0 < S2048x65.numel
  shapeCasts_S2048x65_S2048x65 : S2048x65.ShapeCasts S2048x65
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1_S1_0 : ∀ a, (![0] : Fin 1 → Nat) a + S1.size a ≤ S1.size a
  h_S1 : 0 < S1.numel
  inpos_S1_p0 : ∀ a, (![0] : Fin 1 → Nat) a < S1.size a
  slices_S1024x65_o0_0_S1024x64 : S1024x65.Slices ![0, 0] S1024x64
  slices_S1024x65_o0_64_S1024x1 : S1024x65.Slices ![0, 64] S1024x1
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  dot_S1024x2048_S2048x65_S1024x65_1_0_0_1_n_n_wf : DotDims.WF S1024x2048 S2048x65 S1024x65 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x65.size a ≤ S2048x65.size a
  hwx0_1 : ∀ i : grid0.Coords, EltTy.bits .f32 = 32 ∨ (Rect.block (s := S2048x65) S2048x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x2048_S2048x65_S1024x65_1_0_0_1_n_n : DotDims S1024x2048 S2048x65 S1024x65 where
  lhsContracting := [1]
  rhsContracting := [0]
  lhsNonContracting := [0]
  rhsNonContracting := [1]
  lhsBatch := []
  rhsBatch := []
  wf := dot_S1024x2048_S2048x65_S1024x65_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1 : Shape := ⟨2, ![2048, 1]⟩
abbrev S1 : Shape := ⟨1, ![1]⟩
abbrev S2048x64 : Shape := ⟨2, ![2048, 64]⟩
abbrev S16384x1 : Shape := ⟨2, ![16384, 1]⟩
abbrev S1x1 : Shape := ⟨2, ![1, 1]⟩
abbrev S16384x64 : Shape := ⟨2, ![16384, 64]⟩
abbrev S_ : Shape := ⟨0, ![]⟩
abbrev S16384 : Shape := ⟨1, ![16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1, .f32⟩
  | .hbm, ⟨2, _⟩ => ⟨S1, .f32⟩
  | .hbm, ⟨3, _⟩ => ⟨S2048x64, .f32⟩
  | .hbm, ⟨4, _⟩ => ⟨S16384x1, .f32⟩
  | .hbm, ⟨5, _⟩ => ⟨S1x1, .f32⟩
  | .hbm, ⟨6, _⟩ => ⟨S16384x1, .f32⟩
  | .hbm, ⟨7, _⟩ => ⟨S16384x1, .f32⟩
  | .hbm, ⟨8, _⟩ => ⟨S16384x64, .f32⟩
  | .hbm, ⟨9, _⟩ => ⟨S16384x2048, .f32⟩
  | .hbm, ⟨10, _⟩ => ⟨S2048x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x2048_S2048x1_S16384x1_1_0_0_1_n_n_wf : DotDims.WF S16384x2048 S2048x1 S16384x1 [1] [0] [0] [1] [] []
  dot_S16384x2048_S2048x64_S16384x64_1_0_0_1_n_n_wf : DotDims.WF S16384x2048 S2048x64 S16384x64 [1] [0] [0] [1] [] []

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.FmSpec.lean ====
import Idealize.ShloMosaic.PureOps.Ideal
import Idealize.ShloMosaic.PureOps.Ideal.Laws
import Idealize.ShloMosaic.Lib.ValueIdx
import Idealize.ShloMosaic.Lib.IdealHost

/-!
# The score of a factorization machine, entry by entry

For a batch `X : [16384, 2048]`, first-order weights `W : [2048, 1]`, a bias `B : [1]` and factors `V : [2048, 64]`,
row `r` of the result is the logistic function of

  `(∑ k, X(r,k) · W(k,0) + B(0)) + ½ · ∑ j, ((∑ k, X(r,k) · V(k,j))² − ∑ k, X(r,k)² · V(k,j)²)`

over the extended reals. The constant one half is kept as its binary32 word: both programs spell the same word, so its
value is never needed. `rowScore` is the same expression of ONE row of the batch, with the squared factors an
argument of their own (a kernel may be handed them precomputed).
-/

noncomputable section

open scoped BigOperators

namespace Cert.FmSpec

open Idealize.ShloMosaic Idealize.ShloMosaic.ValueIdx

/-- One half, as the binary32 word both programs print. -/
abbrev half : EReal := Ideal.ofBits .f32 0x3F000000#32

/-- The score of one row `x` of the batch: `w` the first-order weights, `b` the bias, `v` the factors and `vsq` their
    entrywise squares. -/
def rowScore (x w : Fin 2048 → EReal) (b : EReal) (v vsq : Fin 2048 → Fin 64 → EReal) : EReal :=
  Ideal.logistic (((∑ k : Fin 2048, x k * w k) + b)
    + half * ∑ j : Fin 64, ((∑ k : Fin 2048, x k * v k j) * (∑ k : Fin 2048, x k * v k j)
        - ∑ k : Fin 2048, (x k * x k) * vsq k j))

/-- The whole result: row `i 0` of the batch scored against the weights, the bias and the factors. -/
def fmOut (X : (⟨2, ![16384, 2048]⟩ : Shape).Idx → EReal) (W : (⟨2, ![2048, 1]⟩ : Shape).Idx → EReal)
    (B : (⟨1, ![1]⟩ : Shape).Idx → EReal) (V : (⟨2, ![2048, 64]⟩ : Shape).Idx → EReal) :
    (⟨2, ![16384, 1]⟩ : Shape).Idx → EReal := fun i =>
  rowScore (fun k => X (ix2 (i 0) k)) (fun k => W (ix2 k (0 : Fin 1))) (B (ix1 (0 : Fin 1)))
    (fun k j => V (ix2 k j)) (fun k j => V (ix2 k j) * V (ix2 k j))

/-- The logistic function spelt as a quotient, with the ones as binary32 words: the host's expansion of a sigmoid. -/
theorem logistic_eq_div (z : EReal) :
    Ideal.div (Ideal.ofBits .f32 0x3F800000#32) (Ideal.ofBits .f32 0x3F800000#32 + Ideal.exp (-z)) = Ideal.logistic z := by
  rw [Ideal.ofBits_one_f32]
  rfl

end Cert.FmSpec

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«103158_j13030930776067_2_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.FmPayload.lean ====
import proofs.«103158_j13030930776067_2_alg».proof.Proof.Gen.KernelIdeal.Skeleton
import proofs.«103158_j13030930776067_2_alg».proof.Proof.FmSpec
import proofs.«103158_j13030930776067_2_alg».proof.Proof.LibMatmulRows
import proofs.«103158_j13030930776067_2_alg».proof.Proof.LibColumnLayout
import Idealize.ShloMosaic.Lib.Pipeline.Value
import Idealize.ShloMosaic.Lib.ValueIdx
import Idealize.ShloMosaic.PureOps.Ideal.Laws

/-!
# What the kernel body stores, entry by entry

The body multiplies its tile of 1024 rows by the widened factor matrix `[2048, 65]` (the factors with the first-order
weights as a 65th column) in one product, takes columns `0 … 63` as the factor products and column `64` as the
first-order term, multiplies the squared tile by the squared factors it is handed, and stores the logistic function of
`(linear + bias) + ½ · ∑ j, (xv(j)² − x2v2(j))`. Row `p` of what it stores is the row score of row `p` of the tile.
-/

noncomputable section

open scoped BigOperators

namespace Cert.KernelIdeal.Body

open Cert.KernelIdeal Cert.KernelIdeal.Gen
open Idealize.ShloMosaic Idealize.ShloMosaic.ValueIdx Cert.FmSpec Cert.LibMatmulRows Cert.LibColumnLayout

/-- A lane sum of a `[1024, 64]` block at row `p` is the sum of that row's 64 entries. -/
theorem laneSum_apply (src : FVec Ideal S1024x64 .f32) (hφ : FKind.Formats .f32)
    (hacc : (0x00000000#32 : BitVec 32) = FKind.add.neutral .f32 hφ) (p : Fin 1024) :
    multiReduction (F := Ideal) .add [1] S1024 src 0x00000000#32 reduces_S1024x64_S1024 hφ hacc (ix1 p)
      = ∑ j : Fin 64, src (ix2 p j) :=
  (Ideal.multiReduction_add_single src 0x00000000#32 reduces_S1024x64_S1024 hφ hacc (ix1 p)).trans
    (Finset.sum_congr rfl fun j _ => congrArg src
      (funext fun a => Fin.ext (by match a with | ⟨0, _⟩ => rfl | ⟨1, _⟩ => rfl)))

/-- Column `64` of a `[1024, 65]` block, sliced out as a column. -/
theorem lastCol_apply (y : FVec Ideal S1024x65 .f32) (p : Fin 1024) (u : Fin 1) :
    extractStridedSlice S1024x1 ![0, 64] y slices_S1024x65_o0_64_S1024x1 (ix2 p u) = y (ix2 p (64 : Fin 65)) :=
  extractStridedSlice_apply _ y _ (ix2 p u) (ix2 p (64 : Fin 65)) fun a => by
    match a with
    | ⟨0, _⟩ => show p.val = 0 + p.val; omega
    | ⟨1, _⟩ => show 64 = 64 + u.val; omega

/-- Columns `0 … 63` of a `[1024, 65]` block. -/
theorem firstCols_apply (y : FVec Ideal S1024x65 .f32) (p : Fin 1024) (j : Fin 64) :
    extractStridedSlice S1024x64 ![0, 0] y slices_S1024x65_o0_0_S1024x64 (ix2 p j)
      = y (ix2 p (⟨j.val, by omega⟩ : Fin 65)) :=
  extractStridedSlice_apply _ y _ (ix2 p j) (ix2 p (⟨j.val, by omega⟩ : Fin 65)) fun a => by
    match a with
    | ⟨0, _⟩ => show p.val = 0 + p.val; omega
    | ⟨1, _⟩ => show j.val = 0 + j.val; omega

/-- The product with the widened factors, into the zero accumulator, entry by entry. -/
theorem widened_product (x0 : FVec Ideal S1024x2048 .f32) (x1 : FVec Ideal S2048x65 .f32) :
    matmul dot_S1024x2048_S2048x65_S1024x65_1_0_0_1_n_n none x0 x1 (constant (F := Ideal) S1024x65 .f32 0x00000000#32)
      = mmRows x0 x1 :=
  matmulRows_eq _ none x0 x1

/-- The product of the squares, into the zero accumulator, entry by entry. -/
theorem squares_product (y0 : FVec Ideal S1024x2048 .f32) (y2 : FVec Ideal S2048x64 .f32) :
    matmul dot_S1024x2048_S2048x64_S1024x64_1_0_0_1_n_n none y0 y2 (constant (F := Ideal) S1024x64 .f32 0x00000000#32)
      = mmRows y0 y2 :=
  matmulRows_eq _ none y0 y2

/-- ROW `p` OF WHAT THE BODY STORES is the row score of row `p` of the tile `x0`: against column 64 of the widened
    factors `x1` as first-order weights, the bias `x3`, columns `0 … 63` of `x1` as factors and `x2` as their squares. -/
theorem payload_apply (x0 : Vec Ideal S1024x2048 .f32) (x1 : Vec Ideal S2048x65 .f32) (x2 : Vec Ideal S2048x64 .f32)
    (x3 : Vec Ideal S1 .f32) (p : Fin 1024) (u : Fin 1) :
    k0_pay1 (F := Ideal) x0 x1 x2 x3 (ix2 p u)
      = rowScore (fun k => x0 (ix2 p k)) (fun k => x1 (ix2 k (64 : Fin 65))) (x3 (ix1 (0 : Fin 1)))
          (fun k j => x1 (ix2 k (⟨j.val, by omega⟩ : Fin 65))) (fun k j => x2 (ix2 k j)) := by
  unfold k0_pay1
  dsimp only
  unfold rowScore
  refine congrArg Ideal.logistic ?_
  refine congrArg₂ (· + ·) (congrArg₂ (· + ·) ?_ ?_) (congrArg₂ (· * ·) rfl ?_)
  · refine (lastCol_apply _ p u).trans ?_
    rw [shapeCast_self, widened_product]
    rfl
  · exact congrArg x3 (funext fun a => Fin.ext (by match a with | ⟨0, _⟩ => rfl))
  · refine (shapeCast_a_a1_apply _ shapeCasts_S1024_S1024x1 p u).trans ?_
    refine (laneSum_apply _ _ _ p).trans ?_
    refine Finset.sum_congr rfl fun j _ => ?_
    refine congrArg₂ (· - ·) (congrArg₂ (· * ·) ?_ ?_) ?_
    · refine (firstCols_apply _ p j).trans ?_
      rw [shapeCast_self, widened_product]
      rfl
    · refine (firstCols_apply _ p j).trans ?_
      rw [shapeCast_self, widened_product]
      rfl
    · rw [shapeCast_self, squares_product]
      rfl

end Cert.KernelIdeal.Body

end
-- ==== Proof.LibConcatWide.lean ====
import Idealize.ShloMosaic.Lib.ValueIdx
import Idealize.ShloMosaic.Lib.Pipeline.Value

/-!
# Two matrices laid side by side, read at an index

For `a : [R, A]` and `b : [R, B]` concatenated along axis 1 into `[R, T]` (so `T = A + B`), entry `(r, j)` of the
result is `a (r, j)` for a column `j` of the first piece and `b (r, n)` at column `A + n`. No proof enumerates an extent.
-/

namespace Cert.LibConcatWide

open Idealize.ShloMosaic Idealize.ShloMosaic.ValueIdx

variable {α : Type}

/-- The widths of two pieces laid side by side add up to the whole's. -/
theorem concatWide_total {R A B T : Nat}
    (h : Shape.Concatenates [⟨2, ![R, A]⟩, ⟨2, ![R, B]⟩] ⟨2, ![R, T]⟩ 1) : A + B = T := by
  have e : A + (B + 0) = T := h.2.2
  omega

/-- A column of the first piece: entry `(r, j)` of the concatenation is the first piece's. -/
theorem concatWide_apply_left {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (j : Fin A) (hj : j.val < T) :
    concatenate ⟨2, ![R, T]⟩ 1 [⟨⟨2, ![R, A]⟩, a⟩, ⟨⟨2, ![R, B]⟩, b⟩] h (ix2 r (⟨j.val, hj⟩ : Fin T)) = a (ix2 r j) :=
  concatenate_pair_apply_left 1 a b h (ix2 r (⟨j.val, hj⟩ : Fin T)) rfl (ix2 r j)
    (Fin.forall_fin_two.2 ⟨rfl, rfl⟩)

/-- A column of the second piece: entry `(r, A + n)` of the concatenation is the second piece's `(r, n)`. -/
theorem concatWide_apply_right {R A B T : Nat} (a : (⟨2, ![R, A]⟩ : Shape).Idx → α) (b : (⟨2, ![R, B]⟩ : Shape).Idx → α)
    (h : Shape.Concatenates [⟨2, ![R, A]⟩, ⟨2, ![R, B]⟩] ⟨2, ![R, T]⟩ 1) (r : Fin R) (n : Fin B) (hn : A + n.val < T) :
    concatenate ⟨2, ![R, T]⟩ 1 [⟨⟨2, ![R, A]⟩, a⟩, ⟨⟨2, ![R, B]⟩, b⟩] h (ix2 r (⟨A + n.val, hn⟩ : Fin T)) = b (ix2 r n) :=
  concatenate_pair_apply_right 1 a b h (ix2 r (⟨A + n.val, hn⟩ : Fin T)) rfl rfl (ix2 r n)
    (Fin.forall_fin_two.2 ⟨fun _ => rfl, fun hk => absurd rfl hk⟩) (by show n.val + A = A + n.val; omega)

end Cert.LibConcatWide
-- ==== Proof.FmKernelValue.lean ====
import proofs.«103158_j13030930776067_2_alg».proof.Proof.Gen.KernelIdeal.Value
import proofs.«103158_j13030930776067_2_alg».proof.Proof.FmPayload
import proofs.«103158_j13030930776067_2_alg».proof.Proof.LibConcatWide
import Idealize.ShloMosaic.Lib.Pipeline.Value
import Idealize.ShloMosaic.Lib.StableHlo.Run
import Idealize.ShloMosaic.Lib.Tactic

/-!
# The kernel's result array is the factorization machine's score

Grid point `t` (of 16) reads rows `1024·t … 1024·t + 1023` of the batch, the whole widened factor matrix (the factors
with the first-order weights laid beside them as column 64, built on the host before the call), the whole matrix of squared
factors (also built on the host) and the bias, and writes rows `1024·t … 1024·t + 1023` of the result. So what it writes is
that block of rows of the score, the 16 blocks cover the result, and the result array ends holding the score.
-/

noncomputable section

open scoped BigOperators

namespace Cert.KernelIdeal.Hand

open Cert.KernelIdeal Cert.KernelIdeal.Gen Cert.KernelIdeal.Value Cert.KernelIdeal.Body
open Idealize.ShloMosaic Idealize.ShloMosaic.TcCoe Idealize.SL.Sem Idealize.ShloMosaic.ValueIdx
open Idealize.ShloMosaic.Pipeline (Dat)
open Cert.FmSpec Cert.LibConcatWide

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The block index of each window at each of the 16 grid points: the batch and the result move one block of rows per
    point, the other three windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt N_0

/-! ## What the host builds before the call -/

/-- The widened factor matrix as the call finds it: the factors with the first-order weights beside them. -/
theorem V_widened (c : Dev nD) :
    (V m c main_v0 : S2048x65.Idx → EReal)
      = concatenate S2048x65 1 [⟨S2048x64, m ((c : Thread nD τ).loc main_arg3)⟩, ⟨S2048x1, m ((c : Thread nD τ).loc main_arg1)⟩]
          concatenates_S2048x64_S2048x1_S2048x65_d1 := by
  dsimp only [Gen.V, Gen.hostOps0]; after_results

/-- The squared factors as the call finds them. -/
theorem V_squares (c : Dev nD) :
    (V m c main_v1 : S2048x64.Idx → EReal)
      = (mulf (m ((c : Thread nD τ).loc main_arg3) : FVec Ideal S2048x64 .f32)
          (m ((c : Thread nD τ).loc main_arg3) : FVec Ideal S2048x64 .f32) : FVec Ideal S2048x64 .f32) := by
  dsimp only [Gen.V, Gen.hostOps0]; after_results

/-! ## Each window's block at a grid point -/

/-- Row `p` of the batch's block at point `t` is row `1024·t + p` of the batch. -/
theorem batch_block_apply (c : Dev nD) (t : Fin cfg0.N) (p : Fin 1024) (k : Fin 2048) (hr : t.val * 1024 + p.val < 16384) :
    (iblk m c 0 t : Vec Ideal S1024x2048 .f32) (ix2 p k)
      = (m ((c : Thread nD τ).loc main_arg0) : S16384x2048.Idx → EReal) (ix2 (⟨t.val * 1024 + p.val, hr⟩ : Fin 16384) k) := by
  obtain ⟨e00, e01, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = t.val * 1024 + p.val; rw [e00]; omega
  | ⟨1, _⟩ => show win0_0.index t (1 : Fin 2) * 2048 + 1 * k.val = k.val; rw [e01]; omega

/-- The widened factors' block at any point is the whole matrix. -/
theorem widened_block_apply (c : Dev nD) (t : Fin cfg0.N) (k : Fin 2048) (j : Fin 65) :
    (iblk m c 1 t : Vec Ideal S2048x65 .f32) (ix2 k j) = (V m c main_v0 : S2048x65.Idx → EReal) (ix2 k j) := by
  obtain ⟨-, -, e10, e11, -⟩ := idx_facts t
  unfold iblk
  rw [View.read_apply]
  show V m c main_v0 _ = _
  refine congrArg _ (funext fun a => Fin.ext ?_)
  match a with
  | ⟨0, _⟩ => show win0_1.index t (0 : Fin 2) * 2048 + 1 * k.val = k.val; rw [e10]; omega
  | ⟨1, _⟩ => show win0_1.index t (1 : Fin 2) * 65 + 1 * j.val = j.val; rw [e11]; omega

/-- The squared factors' block at any point is the whole matrix. -/
theorem squares_block_apply (c : Dev nD) (t : Fin cfg0.N) (k : Fin 2048) (j : Fin 64) :
    (iblk m c 2 t : Vec Ideal S2048x64 .f32) (ix2 k j) = (V m c main_v1 : S2048x64.Idx → EReal) (ix2 k j) := by
  obtain ⟨-, -, -, -, e20, e21, -⟩ := idx_facts t
  unfold iblk
  rw [View.read_apply]
  show V m c main_v1 _ = _
  refine congrArg _ (funext fun a => Fin.ext ?_)
  match a with
  | ⟨0, _⟩ => show win0_2.index t (0 : Fin 2) * 2048 + 1 * k.val = k.val; rw [e20]; omega
  | ⟨1, _⟩ => show win0_2.index t (1 : Fin 2) * 64 + 1 * j.val = j.val; rw [e21]; omega

/-- The bias's block at any point is the bias. -/
theorem bias_block_apply (c : Dev nD) (t : Fin cfg0.N) :
    (iblk m c 3 t : Vec Ideal S1 .f32) (ix1 (0 : Fin 1))
      = (m ((c : Thread nD τ).loc main_arg2) : S1.Idx → EReal) (ix1 (0 : Fin 1)) := by
  obtain ⟨-, -, -, -, -, -, e30, -⟩ := idx_facts t
  unfold iblk
  rw [View.read_apply]
  show V m c main_arg2 _ = _
  rw [V_main_arg2]
  refine congrArg _ (funext fun a => Fin.ext ?_)
  match a with
  | ⟨0, _⟩ => show win0_3.index t (0 : Fin 1) * 1 + 1 * 0 = 0; rw [e30]

/-! ## One row of what a point stores -/

/-- Row `p` of the body's store, from blocks that hold row `r` of the batch, the weights as column 64 of the widened
    factors, the factors as its columns `0 … 63`, their squares and the bias, is row `r` of the score. -/
theorem block_row (x0 : Vec Ideal S1024x2048 .f32) (x1 : Vec Ideal S2048x65 .f32) (x2 : Vec Ideal S2048x64 .f32)
    (x3 : Vec Ideal S1 .f32)
    (X : (⟨2, ![16384, 2048]⟩ : Shape).Idx → EReal) (W : (⟨2, ![2048, 1]⟩ : Shape).Idx → EReal)
    (B : (⟨1, ![1]⟩ : Shape).Idx → EReal) (Vf : (⟨2, ![2048, 64]⟩ : Shape).Idx → EReal)
    (p : Fin 1024) (u : Fin 1) (r : Fin 16384)
    (h0 : ∀ k : Fin 2048, x0 (ix2 p k) = X (ix2 r k))
    (h1w : ∀ k : Fin 2048, x1 (ix2 k (64 : Fin 65)) = W (ix2 k (0 : Fin 1)))
    (h1v : ∀ (k : Fin 2048) (j : Fin 64), x1 (ix2 k (⟨j.val, by omega⟩ : Fin 65)) = Vf (ix2 k j))
    (h2 : ∀ (k : Fin 2048) (j : Fin 64), x2 (ix2 k j) = Vf (ix2 k j) * Vf (ix2 k j))
    (h3 : x3 (ix1 (0 : Fin 1)) = B (ix1 (0 : Fin 1))) :
    k0_pay1 (F := Ideal) x0 x1 x2 x3 (ix2 p u) = fmOut X W B Vf (ix2 r (0 : Fin 1)) := by
  rw [payload_apply]
  show _ = rowScore (fun k => X (ix2 r k)) (fun k => W (ix2 k (0 : Fin 1))) (B (ix1 (0 : Fin 1)))
    (fun k j => Vf (ix2 k j)) (fun k j => Vf (ix2 k j) * Vf (ix2 k j))
  have e0 : (fun k : Fin 2048 => x0 (ix2 p k)) = fun k => X (ix2 r k) := funext h0
  have e1 : (fun k : Fin 2048 => x1 (ix2 k (64 : Fin 65))) = fun k => W (ix2 k (0 : Fin 1)) := funext h1w
  have e2 : (fun (k : Fin 2048) (j : Fin 64) => x1 (ix2 k (⟨j.val, by omega⟩ : Fin 65))) = fun k j => Vf (ix2 k j) :=
    funext fun k => funext fun j => h1v k j
  have e3 : (fun (k : Fin 2048) (j : Fin 64) => x2 (ix2 k j)) = fun k j => Vf (ix2 k j) * Vf (ix2 k j) :=
    funext fun k => funext fun j => h2 k j
  rw [e0, e1, e2, e3, h3]

/-! ## The result array -/

/-- The score of the argument arrays as launched. -/
abbrev result (c : Dev nD) : Buf (Elt Ideal) ((c : Thread nD τ).loc main_v2) :=
  fmOut (m ((c : Thread nD τ).loc main_arg0)) (m ((c : Thread nD τ).loc main_arg1))
    (m ((c : Thread nD τ).loc main_arg2)) (m ((c : Thread nD τ).loc main_arg3))

/-- WHAT POINT `t` WRITES BACK is block `t` of the score. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz2]
  simp only [View.ld_unit_zero (S := S1024x2048) hz2, View.ld_unit_zero (S := S2048x65) hz2,
    View.ld_unit_zero (S := S2048x64) hz2, View.ld_unit_zero (S := S1) hz1]
  funext y
  obtain ⟨p, u, rfl⟩ : ∃ (p : Fin 1024) (u : Fin 1), y = ix2 p u := ⟨y 0, y 1, eq_ix2 y⟩
  obtain ⟨-, -, -, -, -, -, -, e40, e41⟩ := idx_facts t
  have ht := point_lt t
  have hr : t.val * 1024 + p.val < 16384 := by have := p.isLt; omega
  rw [View.read_apply]
  have hemb : ((cfg0.win 4).blk t).view.emb (ix2 p u) = ix2 (⟨t.val * 1024 + p.val, hr⟩ : Fin 16384) (0 : Fin 1) :=
    funext fun a => Fin.ext (by
      match a with
      | ⟨0, _⟩ => show win0_4.index t (0 : Fin 2) * 1024 + 1 * p.val = t.val * 1024 + p.val; rw [e40]; omega
      | ⟨1, _⟩ => show win0_4.index t (1 : Fin 2) * 1 + 1 * u.val = 0; rw [e41]; omega)
  rw [hemb]
  show k0_pay1 (F := Ideal) (iblk m c 0 t) (iblk m c 1 t) (iblk m c 2 t) (iblk m c 3 t) (ix2 p u) = _
  refine block_row (iblk m c 0 t) (iblk m c 1 t) (iblk m c 2 t) (iblk m c 3 t) _ _ _ _ p u _ ?_ ?_ ?_ ?_ ?_
  · intro k
    exact batch_block_apply m c t p k hr
  · intro k
    rw [widened_block_apply, V_widened]
    exact concatWide_apply_right _ _ _ k (0 : Fin 1) (by decide)
  · intro k j
    rw [widened_block_apply, V_widened]
    exact concatWide_apply_left _ _ _ k j (by omega)
  · intro k j
    rw [squares_block_apply, V_squares]
    rfl
  · exact bias_block_apply m c t

/-- Every row of the result is in the block of the point `row / 1024`. -/
theorem cover (i : S16384x1.Idx) :
    ∃ t : Fin cfg0.N, (cfg0.win 4).flush t = true ∧ i ∈ ((cfg0.win 4).blk t).view.set := by
  have hi0 : (i 0).val < 16384 := (i 0).isLt
  have hi1 : (i 1).val < 1 := (i 1).isLt
  have hq : (i 0).val / 1024 < cfg0.N := by rw [show cfg0.N = 16 from N_0]; omega
  obtain ⟨-, -, -, -, -, -, -, e40, e41⟩ := idx_facts ⟨(i 0).val / 1024, hq⟩
  refine ⟨⟨(i 0).val / 1024, hq⟩, flush0_4 _, ?_⟩
  show i ∈ ((View.whole main_v2).slice (win0_4.rect ⟨(i 0).val / 1024, hq⟩)).set
  rw [View.set_slice_whole, Rect.mem_set_unit]
  intro a
  match a with
  | ⟨0, _⟩ =>
    show win0_4.index ⟨(i 0).val / 1024, hq⟩ (0 : Fin 2) * 1024 ≤ (i 0).val
      ∧ (i 0).val < win0_4.index ⟨(i 0).val / 1024, hq⟩ (0 : Fin 2) * 1024 + 1024
    rw [e40]
    show (i 0).val / 1024 * 1024 ≤ (i 0).val ∧ (i 0).val < (i 0).val / 1024 * 1024 + 1024
    omega
  | ⟨1, _⟩ =>
    show win0_4.index ⟨(i 0).val / 1024, hq⟩ (1 : Fin 2) * 1 ≤ (i 1).val
      ∧ (i 1).val < win0_4.index ⟨(i 0).val / 1024, hq⟩ (1 : Fin 2) * 1 + 1
    rw [e41]
    omega

/-- So the result array ends holding the score. -/
theorem final (c : Dev nD) : (dats m 0 c).arrAt 4 cfg0.N = result m c :=
  (dats m 0 c).arrAt_eq_of_cover 4 (result m c) (fun t _ => flushed_eq m c t) cover

/-- The kernel's run, read: the result array at the score of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.FmReference.lean ====
import proofs.«103158_j13030930776067_2_alg».proof.Proof.Gen.ReferenceIdeal.Read
import proofs.«103158_j13030930776067_2_alg».proof.Proof.FmSpec

/-!
# The reference computes the factorization machine's score

Read one operation at a time, the reference's result at row `r` is the quotient `1 / (1 + exp (−z))` of
`z = (X·W)(r) + B(0) + ½ · (0 + ∑ j, ((X·V)(r,j)² − (X²·V²)(r,j)))`: the logistic function of the score's argument.
-/

noncomputable section

open scoped BigOperators

namespace Cert.ReferenceIdeal.RefValue

open Cert.ReferenceIdeal Cert.ReferenceIdeal.Gen Cert.ReferenceIdeal.Read
open Idealize.ShloMosaic Idealize.ShloMosaic.ValueIdx Cert.FmSpec

/-- The reference's last stage is the specification, entry by entry. -/
theorem reference_eq (x0 : FVec Ideal S16384x2048 .f32) (x1 : FVec Ideal S2048x1 .f32) (x2 : FVec Ideal S1 .f32)
    (x3 : FVec Ideal S2048x64 .f32) :
    val_main_v20 (F := Ideal) x0 x1 x2 x3 = fmOut x0 x1 x2 x3 := by
  funext i
  obtain ⟨r, u, rfl⟩ : ∃ (r : Fin 16384) (u : Fin 1), i = ix2 r u := ⟨i 0, i 1, eq_ix2 i⟩
  obtain rfl : u = 0 := Subsingleton.elim _ _
  rw [val_main_v20_apply, val_main_v19_apply, val_main_cst_2_apply, val_main_v18_apply, val_main_v17_apply,
    val_main_cst_1_apply, val_main_v16_apply, val_main_v15_apply, val_main_v14_apply, val_main_v3_apply,
    val_main_v0_apply, val_main_v2_apply, val_main_v1_apply, val_main_v13_apply, val_main_v12_apply,
    val_main_cst_0_apply, val_main_v11_apply, val_main_v10_apply, val_main_cst_apply]
  simp only [val_main_v9_apply, val_main_v8_apply, val_main_v4_apply, val_main_v7_apply, val_main_v5_apply,
    val_main_v6_apply]
  have eL0 : ∀ k : Fin 2048, lidx_main_v0 (ix2 r (0 : Fin 1)) k = ix2 r k := fun k =>
    funext fun a => Fin.ext (by match a with | ⟨0, _⟩ => rfl | ⟨1, _⟩ => rfl)
  have eR0 : ∀ k : Fin 2048, ridx_main_v0 (ix2 r (0 : Fin 1)) k = ix2 k (0 : Fin 1) := fun k =>
    funext fun a => Fin.ext (by match a with | ⟨0, _⟩ => rfl | ⟨1, _⟩ => rfl)
  have eB : idx_main_v1 (idx_main_v2 (ix2 r (0 : Fin 1))) = ix1 (0 : Fin 1) :=
    funext fun a => Fin.ext (by match a with | ⟨0, _⟩ => rfl)
  have eL4 : ∀ (j : Fin 64) (k : Fin 2048),
      lidx_main_v4 (idx_main_v10 (idx_main_v11 (ix2 r (0 : Fin 1))) j) k = ix2 r k := fun j k =>
    funext fun a => Fin.ext (by match a with | ⟨0, _⟩ => rfl | ⟨1, _⟩ => rfl)
  have eR4 : ∀ (j : Fin 64) (k : Fin 2048),
      ridx_main_v4 (idx_main_v10 (idx_main_v11 (ix2 r (0 : Fin 1))) j) k = ix2 k j := fun j k =>
    funext fun a => Fin.ext (by match a with | ⟨0, _⟩ => rfl | ⟨1, _⟩ => rfl)
  have eL7 : ∀ (j : Fin 64) (k : Fin 2048),
      lidx_main_v7 (idx_main_v10 (idx_main_v11 (ix2 r (0 : Fin 1))) j) k = ix2 r k := fun j k =>
    funext fun a => Fin.ext (by match a with | ⟨0, _⟩ => rfl | ⟨1, _⟩ => rfl)
  have eR7 : ∀ (j : Fin 64) (k : Fin 2048),
      ridx_main_v7 (idx_main_v10 (idx_main_v11 (ix2 r (0 : Fin 1))) j) k = ix2 k j := fun j k =>
    funext fun a => Fin.ext (by match a with | ⟨0, _⟩ => rfl | ⟨1, _⟩ => rfl)
  simp only [eL0, eR0, eB, eL4, eR4, eL7, eR7, Ideal.hostDivf_def, Ideal.addf_def, Ideal.hostUnary_exp_def,
    Ideal.hostNegf_def, Ideal.negf_def, Ideal.mulf_def, Ideal.subf_def, Ideal.ofBits_def, Ideal.ofBits_zero_f32,
    zero_add, logistic_eq_div]
  rfl

end Cert.ReferenceIdeal.RefValue

end
-- ==== Proof.lean ====
/-
  A factorization machine's score, computed by a tiled kernel and by the plain formula: equal over the extended reals.

  The reference computes, for each of 16384 rows `x` of the batch,
    `sigmoid ((x · w + b) + ½ · ∑ j, ((x · v_j)² − x² · v_j²))`
  with three separate products and the sigmoid spelt `1 / (1 + exp (−z))`. The kernel lays the first-order weights
  beside the 64 factor columns as a 65th column, so ONE product with the widened matrix yields the factor products
  (columns 0 … 63) and the first-order term (column 64); it is handed the squared factors precomputed, works on 1024
  rows per grid point, and applies the logistic operation. Over the extended reals a product into a zero accumulator
  and the host's contraction are the same sum, a lane sum and the host's reduction from zero are the same sum, and the
  logistic operation is that quotient; reading column `j` of the widened matrix gives the factor column `j` or the
  weights. So both results are one function of the arguments (`Cert.FmSpec.fmOut`), entry by entry, and no law of
  arithmetic beyond `0 + s = s` is used: the inputs' finiteness is never opened.

  Modules: FmSpec (the score), FmReference (the reference's stages are the score), FmPayload (a row of what the body
  stores), FmKernelValue (the host's two preparations, the blocks, the 16 row blocks cover the result), and the general
  lemma files LibMatmulRows / LibIndexOps (a product read at an index), LibColumnLayout (a flat array cast to a column),
  LibConcatWide (two matrices side by side read at an index).
-/
import proofs.«103158_j13030930776067_2_alg».proof.Defs
import proofs.«103158_j13030930776067_2_alg».proof.Proof.Gen.Kernel
import proofs.«103158_j13030930776067_2_alg».proof.Proof.Gen.Kernel.Skeleton
import proofs.«103158_j13030930776067_2_alg».proof.Proof.Gen.Kernel.Launch
import proofs.«103158_j13030930776067_2_alg».proof.Proof.Gen.Kernel.Points
import proofs.«103158_j13030930776067_2_alg».proof.Proof.Gen.Kernel.Frame
import proofs.«103158_j13030930776067_2_alg».proof.Proof.Gen.KernelIdeal
import proofs.«103158_j13030930776067_2_alg».proof.Proof.Gen.KernelIdeal.Skeleton
import proofs.«103158_j13030930776067_2_alg».proof.Proof.Gen.KernelIdeal.Launch
import proofs.«103158_j13030930776067_2_alg».proof.Proof.Gen.KernelIdeal.Points
import proofs.«103158_j13030930776067_2_alg».proof.Proof.Gen.KernelIdeal.Frame
import proofs.«103158_j13030930776067_2_alg».proof.Proof.Gen.ReferenceIdeal
import proofs.«103158_j13030930776067_2_alg».proof.Proof.Gen.Pre_finite_inputs
import proofs.«103158_j13030930776067_2_alg».proof.Proof.Gen.KernelIdeal.Value
import proofs.«103158_j13030930776067_2_alg».proof.Proof.Gen.ReferenceIdeal.Run
import proofs.«103158_j13030930776067_2_alg».proof.Proof.Gen.ReferenceIdeal.Read
import proofs.«103158_j13030930776067_2_alg».proof.Proof.FmKernelValue
import proofs.«103158_j13030930776067_2_alg».proof.Proof.FmReference
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the score of the arguments in their result array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
